-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x2049 : Shape := ⟨2, ![32, 2049]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) (main_arg1 : IVec S32x2049 32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  main_v3
-- ==== Kernel.lean ====
abbrev S32x2048x1024 : Shape := ⟨3, ![32, 2048, 1024]⟩
abbrev S32x2049 : Shape := ⟨2, ![32, 2049]⟩
abbrev S32x2048 : Shape := ⟨2, ![32, 2048]⟩
abbrev S_ : Shape := ⟨0, ![]⟩
abbrev S1 : Shape := ⟨1, ![1]⟩
abbrev S32 : Shape := ⟨1, ![32]⟩
abbrev S32x1x2048 : Shape := ⟨3, ![32, 1, 2048]⟩
abbrev S32x128x1024 : Shape := ⟨3, ![32, 128, 1024]⟩
abbrev S32x1x128 : Shape := ⟨3, ![32, 1, 128]⟩
abbrev S1x1x2048 : Shape := ⟨3, ![1, 1, 2048]⟩
abbrev S1x2048x1024 : Shape := ⟨3, ![1, 2048, 1024]⟩
abbrev S1x128x1024 : Shape := ⟨3, ![1, 128, 1024]⟩
abbrev S1x1x128 : Shape := ⟨3, ![1, 1, 128]⟩
abbrev S1x2048 : Shape := ⟨2, ![1, 2048]⟩
abbrev S128x2048 : Shape := ⟨2, ![128, 2048]⟩
abbrev S2048x1024 : Shape := ⟨2, ![2048, 1024]⟩
abbrev S128x1024 : Shape := ⟨2, ![128, 1024]⟩
abbrev S128 : Shape := ⟨1, ![128]⟩
abbrev S1x128 : Shape := ⟨2, ![1, 128]⟩
abbrev S32x128 : Shape := ⟨2, ![32, 128]⟩
abbrev S32x128x1 : Shape := ⟨3, ![32, 128, 1]⟩

abbrev nBuf : Space → Nat
  | .hbm => 28
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S32x2049, .i32⟩
  | .hbm, ⟨2, _⟩ => ⟨S32x2048, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S32, .i32⟩
  | .hbm, ⟨7, _⟩ => ⟨S32x2048, .i32⟩
  | .hbm, ⟨8, _⟩ => ⟨S_, .i32⟩
  | .hbm, ⟨9, _⟩ => ⟨S_, .i32⟩
  | .hbm, ⟨10, _⟩ => ⟨S32x2048, .i32⟩
  | .hbm, ⟨11, _⟩ => ⟨S_, .i32⟩
  | .hbm, ⟨12, _⟩ => ⟨S32x2048, .i32⟩
  | .hbm, ⟨13, _⟩ => ⟨S32x2048, .i32⟩
  | .hbm, ⟨14, _⟩ => ⟨S32x1x2048, .i32⟩
  | .hbm, ⟨15, _⟩ => ⟨S32x128x1024, .f32⟩
  | .hbm, ⟨16, _⟩ => ⟨S32x1x128, .f32⟩
  | .hbm, ⟨17, _⟩ => ⟨S32x128, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S32x128x1, .f32⟩
  | .hbm, ⟨22, _⟩ => ⟨S32x128x1024, .f32⟩
  | .hbm, ⟨23, _⟩ => ⟨S32x128x1024, .f32⟩
  | .hbm, ⟨24, _⟩ => ⟨S_, .f32⟩
  | .hbm, ⟨25, _⟩ => ⟨S32x128, .f32⟩
  | .hbm, ⟨26, _⟩ => ⟨S32x128, .i1⟩
  | .hbm, ⟨27, _⟩ => ⟨S32x128, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x1024, .f32⟩
  | .local _ .vmem, ⟨3, _⟩ => ⟨S1x2048x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1x128, .f32⟩
  | .local _ .vmem, ⟨7, _⟩ => ⟨S1x1x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_call0_call0_c : Ref sig .tc := ⟨.hbm, 8, rfl⟩
abbrev main_call0_call0_v0 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x2049_S32x2048_0_0 : S32x2049.Slices ![0, 0] S32x2048
  bcast_S_S1 : S_.BroadcastsInDim S1 (![] : Fin 0 → Fin S1.rank)
  bcast_S_S32 : S_.BroadcastsInDim S32 (![] : Fin 0 → Fin S32.rank)
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S128x2048_d0_w32 : S128x2048.Iotas .tc 32 [0]
  broadcasts_S1x2048_S128x2048 : S1x2048.Broadcasts S128x2048
  natLt_1_32 : 1 < 32
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  reduces_S128x2048_S128 : S128x2048.Reduces [1] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x128_S32x128 : S32x1x128.ShapeCasts S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x1_S32x128x1024_0_1_2 : S32x128x1.BroadcastsInDim S32x128x1024 (![0, 1, 2] : Fin 3 → Fin S32x128x1024.rank)
  scatter_S32x2048_S1_S32_0_1_1_0_wf : ScatterDims.WF S32x2048 S1 S32 [0] [1] [1] 0
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S32x1x2048.size a
  hwx0_0 : ∀ i : grid0.Coords, EltTy.bits .i32 = 32 ∨ (Rect.block (s := S32x1x2048) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .f32 = 32 ∨ (Rect.block (s := S32x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S32x128x1024.size a
  hwx0_2 : ∀ i : grid0.Coords, EltTy.bits .f32 = 32 ∨ (Rect.block (s := S32x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

def scatter_S32x2048_S1_S32_0_1_1_0 : ScatterDims S32x2048 S1 S32 where
  updateWindowDims := [0]
  insertedWindowDims := [1]
  scatterDimsToOperandDims := [1]
  indexVectorDim := 0
  wf := scatter_S32x2048_S1_S32_0_1_1_0_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v7) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S32x2049 : Shape := ⟨2, ![32, 2049]⟩
abbrev S32x2048 : Shape := ⟨2, ![32, 2048]⟩
abbrev S_ : Shape := ⟨0, ![]⟩
abbrev S1 : Shape := ⟨1, ![1]⟩
abbrev S32 : Shape := ⟨1, ![32]⟩
abbrev S32x2048x1 : Shape := ⟨3, ![32, 2048, 1]⟩
abbrev S1x1x128 : Shape := ⟨3, ![1, 1, 128]⟩
abbrev S32x2048x128 : Shape := ⟨3, ![32, 2048, 128]⟩
abbrev S32x128 : Shape := ⟨2, ![32, 128]⟩
abbrev S32x128x2048 : Shape := ⟨3, ![32, 128, 2048]⟩
abbrev S32x128x1 : Shape := ⟨3, ![32, 128, 1]⟩
abbrev S32x128x1024 : Shape := ⟨3, ![32, 128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2049, .i32⟩
  | .hbm, ⟨2, _⟩ => ⟨S32x2048, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S32, .i32⟩
  | .hbm, ⟨7, _⟩ => ⟨S32x2048, .i32⟩
  | .hbm, ⟨8, _⟩ => ⟨S_, .i32⟩
  | .hbm, ⟨9, _⟩ => ⟨S_, .i32⟩
  | .hbm, ⟨10, _⟩ => ⟨S32x2048, .i32⟩
  | .hbm, ⟨11, _⟩ => ⟨S_, .i32⟩
  | .hbm, ⟨12, _⟩ => ⟨S32x2048, .i32⟩
  | .hbm, ⟨13, _⟩ => ⟨S32x2048, .i32⟩
  | .hbm, ⟨14, _⟩ => ⟨S32x2048x1, .i32⟩
  | .hbm, ⟨15, _⟩ => ⟨S1x1x128, .i32⟩
  | .hbm, ⟨16, _⟩ => ⟨S32x2048x128, .i32⟩
  | .hbm, ⟨17, _⟩ => ⟨S32x2048x128, .i32⟩
  | .hbm, ⟨18, _⟩ => ⟨S32x2048x128, .i1⟩
  | .hbm, ⟨19, _⟩ => ⟨S32x2048x128, .f32⟩
  | .hbm, ⟨20, _⟩ => ⟨S_, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .i1⟩
  | .hbm, ⟨25, _⟩ => ⟨S_, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S_, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128x2048, .f32⟩
  | .hbm, ⟨36, _⟩ => ⟨S32x128x1, .f32⟩
  | .hbm, ⟨37, _⟩ => ⟨S32x128x2048, .f32⟩
  | .hbm, ⟨38, _⟩ => ⟨S32x128x2048, .f32⟩
  | .hbm, ⟨39, _⟩ => ⟨S32x128x1024, .f32⟩
  | .hbm, ⟨40, _⟩ => ⟨S_, .f32⟩
  | .hbm, ⟨41, _⟩ => ⟨S32x128, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_call0_call0_c : Ref sig .tc := ⟨.hbm, 8, rfl⟩
abbrev main_call0_call0_v0 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_call2_v0 : Ref sig .tc := ⟨.hbm, 32, rfl⟩
abbrev main_call2_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  slices_S32x2049_S32x2048_0_0 : S32x2049.Slices ![0, 0] S32x2048
  bcast_S_S1 : S_.BroadcastsInDim S1 (![] : Fin 0 → Fin S1.rank)
  bcast_S_S32 : S_.BroadcastsInDim S32 (![] : Fin 0 → Fin S32.rank)
  bcast_S_S_ : S_.BroadcastsInDim S_ (![] : Fin 0 → Fin S_.rank)
  reduceWindows_S32x2048_S32x2048_w1s1p0_0_w2048s1p2047_0 : S32x2048.ReduceWindows (![1, 2048] : Fin 2 → Nat) ![1, 1] ![0, 2047] ![0, 0] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x128_0_1_2 : S32x2048x1.BroadcastsInDim S32x2048x128 (![0, 1, 2] : Fin 3 → Fin S32x2048x128.rank)
  bcast_S1x1x128_S32x2048x128_0_1_2 : S1x1x128.BroadcastsInDim S32x2048x128 (![0, 1, 2] : Fin 3 → Fin S32x2048x128.rank)
  reducesTo_S32x2048x128_S32x128_d1 : S32x2048x128.ReducesTo [1] S32x128
  bcast_S_S32x128 : S_.BroadcastsInDim S32x128 (![] : Fin 0 → Fin S32x128.rank)
  transposes_S32x2048x128_S32x128x2048_0_2_1 : S32x2048x128.Transposes [0, 2, 1] S32x128x2048
  bcast_S32x128_S32x128x1_0_1 : S32x128.BroadcastsInDim S32x128x1 (![0, 1] : Fin 2 → Fin S32x128x1.rank)
  bcast_S32x128x1_S32x128x2048_0_1_2 : S32x128x1.BroadcastsInDim S32x128x2048 (![0, 1, 2] : Fin 3 → Fin S32x128x2048.rank)
  reducesTo_S32x128x2048_S32x128_d2 : S32x128x2048.ReducesTo [2] S32x128
  scatter_S32x2048_S1_S32_0_1_1_0_wf : ScatterDims.WF S32x2048 S1 S32 [0] [1] [1] 0
  dot_S32x128x2048_S32x2048x1024_S32x128x1024_2_1_1_2_0_0_wf : DotDims.WF S32x128x2048 S32x2048x1024 S32x128x1024 [2] [1] [1] [2] [0] [0]

variable [Facts₀]

def scatter_S32x2048_S1_S32_0_1_1_0 : ScatterDims S32x2048 S1 S32 where
  updateWindowDims := [0]
  insertedWindowDims := [1]
  scatterDimsToOperandDims := [1]
  indexVectorDim := 0
  wf := scatter_S32x2048_S1_S32_0_1_1_0_wf
def dot_S32x128x2048_S32x2048x1024_S32x128x1024_2_1_1_2_0_0 : DotDims S32x128x2048 S32x2048x1024 S32x128x1024 where
  lhsContracting := [2]
  rhsContracting := [1]
  lhsNonContracting := [1]
  rhsNonContracting := [2]
  lhsBatch := [0]
  rhsBatch := [0]
  wf := dot_S32x128x2048_S32x2048x1024_S32x128x1024_2_1_1_2_0_0_wf

class Facts : Prop extends Facts₀ where

variable [Facts]
-- ==== Proof.Spec.lean ====
/-
  The mathematics of segment mean-pooling, stated once over literal shapes, with no program in sight.

  A batch row `b` of 2048 frames carries a segment id per frame, `g (b, t)`. Segment `s` (of 128) owns the frames
  whose id is `s`; `ind` is the 0/1 indicator of that, `count` the number of frames a segment owns. Mean-pooling
  averages the frames of a segment: the sum of the owned rows of `x` divided by the count, an empty segment giving 0.
  Two arrangements of that average are written down here, side by side:
    * divide LAST  (`pooledDiv`, `nonempty`):  (sum over t of ind * x) / max(count, 1), and the flag "count > 0";
    * weight FIRST (`pooledWeighted`, `weightSum`): sum over t of (ind * w) * x with w = 1/max(count,1) on a
      non-empty segment and 0 on an empty one, and the sum over t of ind * w.
  They agree on finite `x` (the law is in the module that imports this one).
  The segment ids themselves come from the boundary flags by a fixed chain (keep the first 2048 flags, force a
  boundary at frame 0, running sum along the row, minus one): `segOf`; it is never opened.
-/
import Idealize.ShloMosaic.PureOps.Ideal
import Idealize.ShloMosaic.PureOps
import Idealize.ShloMosaic.Lib.ValueIdx

noncomputable section

open scoped BigOperators

namespace Cert.SegPool

open Idealize.ShloMosaic Idealize.ShloMosaic.ValueIdx

/-! ## Shapes -/

/-- boundary flags, [32, 2049] -/
abbrev SA : Shape := ⟨2, ![32, 2049]⟩
/-- segment ids, [32, 2048] -/
abbrev SG : Shape := ⟨2, ![32, 2048]⟩
/-- frames, [32, 2048, 1024] -/
abbrev SX : Shape := ⟨3, ![32, 2048, 1024]⟩
/-- pooled rows, [32, 128, 1024] -/
abbrev SP : Shape := ⟨3, ![32, 128, 1024]⟩
/-- per-segment scalars, [32, 128] -/
abbrev SC : Shape := ⟨2, ![32, 128]⟩
abbrev S0 : Shape := ⟨0, ![]⟩
abbrev S1 : Shape := ⟨1, ![1]⟩
abbrev S32 : Shape := ⟨1, ![32]⟩

/-! ## Segment ids from boundary flags -/

theorem slices_SA_SG : SA.Slices ![0, 0] SG := by decide
theorem bcast_S0_S1 : S0.BroadcastsInDim S1 (![] : Fin 0 → Fin S1.rank) := by decide
theorem bcast_S0_S32 : S0.BroadcastsInDim S32 (![] : Fin 0 → Fin S32.rank) := by decide
theorem bcast_S0_S0 : S0.BroadcastsInDim S0 (![] : Fin 0 → Fin S0.rank) := by decide
theorem bcast_S0_SG : S0.BroadcastsInDim SG (![] : Fin 0 → Fin SG.rank) := by decide
theorem reduceWindows_SG : SG.ReduceWindows (![1, 2048] : Fin 2 → Nat) ![1, 1] ![0, 2047] ![0, 0] SG := by decide
theorem h_S0 : 0 < S0.numel := by decide
theorem scatter_wf : ScatterDims.WF SG S1 S32 [0] [1] [1] 0 := by decide

/-- Writing one value into column 0 of every row. -/
def setCol0 : ScatterDims SG S1 S32 where
  updateWindowDims := [0]
  insertedWindowDims := [1]
  scatterDimsToOperandDims := [1]
  indexVectorDim := 0
  wf := scatter_wf

/-- The segment id of every frame, from the boundary flags: the first 2048 flags of each row, the flag of frame 0
    set to 1, the running sum along the row, minus 1 (all in 32-bit words). -/
def segOf (a : IVec SA 32) : IVec SG 32 :=
  subi
    (Host.reduceWindow IntOp.addi ![1, 2048] ![1, 1] ![0, 2047] ![0, 0]
      (Host.scatter setCol0 (fun _ b => b) (extractStridedSlice SG ![0, 0] a slices_SA_SG)
        (broadcastInDim S1 ![] bcast_S0_S1 (constantI S0 32 0#32))
        (broadcastInDim S32 ![] bcast_S0_S32 (constantI S0 32 1#32)))
      (broadcastInDim S0 ![] bcast_S0_S0 (constantI S0 32 0#32)) reduceWindows_SG h_S0)
    (broadcastInDim SG ![] bcast_S0_SG (constantI S0 32 1#32))

/-! ## Indicators, counts, and the two arrangements of the mean -/

/-- 1 when the frame's segment id `g` is segment `s`, else 0. -/
def ind (g : BitVec 32) (s : ℕ) : EReal := if g = BitVec.ofNat 32 s then 1 else 0

theorem ind_cases (g : BitVec 32) (s : ℕ) : ind g s = 0 ∨ ind g s = 1 := by
  unfold ind; split <;> simp

/-- The weight of a segment with `n` frames: 1 / max(n, 1) when it has a frame, 0 when it has none. -/
def weight (n : EReal) : EReal := if 0 < n then Ideal.div 1 (max n 1) else 0

/-- How many frames of row `b` segment `s` owns. -/
def count (g : IVec SG 32) (b : Fin 32) (s : Fin 128) : EReal := ∑ t : Fin 2048, ind (g (ix2 b t)) s.val

/-- Divide last: the sum of the owned frames, divided by max(count, 1). -/
def pooledDivAt (x : FVec Ideal SX .f32) (g : IVec SG 32) (b : Fin 32) (s : Fin 128) (d : Fin 1024) : EReal :=
  Ideal.div (∑ t : Fin 2048, ind (g (ix2 b t)) s.val * x (ix3 b t d)) (max (count g b s) 1)

def pooledDiv (x : FVec Ideal SX .f32) (g : IVec SG 32) : FVec Ideal SP .f32 := fun i => pooledDivAt x g (i 0) (i 1) (i 2)

/-- The flag "segment `s` of row `b` owns a frame", as 1 or 0. -/
def nonemptyAt (g : IVec SG 32) (b : Fin 32) (s : Fin 128) : EReal := if 0 < count g b s then 1 else 0

def nonempty (g : IVec SG 32) : FVec Ideal SC .f32 := fun i => nonemptyAt g (i 0) (i 1)

/-- Weight first: every frame's indicator scaled by the segment's weight, then summed against `x`. -/
def pooledWeightedAt (x : FVec Ideal SX .f32) (g : IVec SG 32) (b : Fin 32) (s : Fin 128) (d : Fin 1024) : EReal :=
  ∑ t : Fin 2048, (ind (g (ix2 b t)) s.val * weight (count g b s)) * x (ix3 b t d)

def pooledWeighted (x : FVec Ideal SX .f32) (g : IVec SG 32) : FVec Ideal SP .f32 :=
  fun i => pooledWeightedAt x g (i 0) (i 1) (i 2)

/-- The weights of a segment's row summed: 1 on a non-empty segment, 0 on an empty one. -/
def weightSumAt (g : IVec SG 32) (b : Fin 32) (s : Fin 128) : EReal :=
  ∑ t : Fin 2048, ind (g (ix2 b t)) s.val * weight (count g b s)

def weightSum (g : IVec SG 32) : FVec Ideal SC .f32 := fun i => weightSumAt g (i 0) (i 1)

end Cert.SegPool

end
-- ==== Proof.Law.lean ====
/-
  The algebraic law of segment mean-pooling: dividing the sum of a segment's frames by the segment's size
  ("divide last") equals summing the frames against the per-frame weight 1/size ("weight first"), and the weights
  of a non-empty segment sum to 1.

  Both facts are first proved over an arbitrary finite index type for a 0/1-valued indicator family and finite
  data, by moving everything into the real numbers: the sum N of a 0/1 family is either 0 (and then the whole
  family vanishes) or at least 1 (and then max N 1 = N is a nonzero real, division by N is multiplication by 1/N,
  and the claims are the distributive law and N * (1/N) = 1).
-/
import proofs.«161840_j21569325761126_1_alg».proof.Proof.Spec
import Mathlib.Data.EReal.Basic
import Mathlib.Algebra.BigOperators.Ring.Finset
import Mathlib.Algebra.Order.BigOperators.Group.Finset
import Mathlib.Tactic

noncomputable section

open scoped BigOperators

namespace Cert.SegPool

open Idealize.ShloMosaic Idealize.ShloMosaic.ValueIdx

/-! ## Sums of coerced reals -/

/-- The coercion of the reals into the extended reals commutes with finite sums. -/
theorem coe_finset_sum {ι : Type} (s : Finset ι) (f : ι → ℝ) :
    ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-! ## 0/1 families -/

/-- A 0/1-valued extended real is the coercion of a 0/1-valued real. -/
theorem zero_one_real (a : EReal) (h : a = 0 ∨ a = 1) :
    a = ((a.toReal : ℝ) : EReal) ∧ (a.toReal = 0 ∨ a.toReal = 1) := by
  rcases h with h | h
  · subst h; simp
  · subst h; simp

/-- The sum of a 0/1-valued real family is 0, with every term 0, or at least 1. -/
theorem zero_one_sum {ι : Type} [Fintype ι] (o : ι → ℝ) (ho : ∀ t, o t = 0 ∨ o t = 1) :
    (∀ t, o t = 0) ∨ 1 ≤ ∑ t, o t := by
  classical
  by_cases h : ∃ t, o t = 1
  · obtain ⟨t, ht⟩ := h
    right
    have hnn : ∀ i ∈ (Finset.univ : Finset ι), 0 ≤ o i := by
      intro i _
      rcases ho i with hi | hi <;> rw [hi] <;> norm_num
    calc (1 : ℝ) = o t := ht.symm
      _ ≤ ∑ i, o i := Finset.single_le_sum hnn (Finset.mem_univ t)
  · left
    intro t
    rcases ho t with ht | ht
    · exact ht
    · exact absurd ⟨t, ht⟩ h

/-- The weight of a segment with a real number N ≥ 1 of frames is 1/N. -/
theorem weight_coe_of_one_le {N : ℝ} (hN : 1 ≤ N) : weight (N : EReal) = ((1 / N : ℝ) : EReal) := by
  have hpos : (0 : EReal) < (N : EReal) := by
    exact_mod_cast (lt_of_lt_of_le one_pos hN)
  have hmax : max (N : EReal) 1 = (N : EReal) := by
    apply max_eq_left
    exact_mod_cast hN
  have hne : N ≠ 0 := by linarith
  rw [weight, if_pos hpos, hmax, Ideal.div_coe hne, one_mul]

/-- The weight of an empty segment is 0. -/
theorem weight_zero : weight 0 = 0 := by
  rw [weight, if_neg (lt_irrefl _)]

/-! ## The two laws over a finite index type -/

theorem mean_law {ι : Type} [Fintype ι] (oh : ι → EReal) (r : ι → ℝ) (hoh : ∀ t, oh t = 0 ∨ oh t = 1) :
    ∑ t, (oh t * weight (∑ t, oh t)) * (r t : EReal)
      = Ideal.div (∑ t, oh t * (r t : EReal)) (max (∑ t, oh t) 1) := by
  classical
  set o : ι → ℝ := fun t => (oh t).toReal with ho_def
  have hcoe : ∀ t, oh t = ((o t : ℝ) : EReal) := fun t => (zero_one_real (oh t) (hoh t)).1
  have ho : ∀ t, o t = 0 ∨ o t = 1 := fun t => (zero_one_real (oh t) (hoh t)).2
  have hsum : ∑ t, oh t = ((∑ t, o t : ℝ) : EReal) := by
    rw [coe_finset_sum]
    exact Finset.sum_congr rfl (fun t _ => hcoe t)
  rcases zero_one_sum o ho with hz | hN
  · -- every indicator vanishes: both sides are 0
    have hz' : ∀ t, oh t = 0 := fun t => by rw [hcoe t, hz t, EReal.coe_zero]
    have h0 : ∑ t, oh t = 0 := Finset.sum_eq_zero (fun t _ => hz' t)
    have hl : ∑ t, (oh t * weight (∑ t, oh t)) * (r t : EReal) = 0 :=
      Finset.sum_eq_zero (fun t _ => by rw [hz' t, zero_mul, zero_mul])
    have hr : ∑ t, oh t * (r t : EReal) = 0 :=
      Finset.sum_eq_zero (fun t _ => by rw [hz' t, zero_mul])
    rw [hl, hr, h0, max_eq_right (zero_le_one), Ideal.div, if_neg one_ne_zero, zero_mul]
  · -- a non-empty segment: everything is real
    have hne : (∑ t, o t) ≠ 0 := by linarith
    have hmax : max ((∑ t, o t : ℝ) : EReal) 1 = ((∑ t, o t : ℝ) : EReal) := by
      apply max_eq_left
      exact_mod_cast hN
    rw [hsum, weight_coe_of_one_le hN, hmax, Ideal.div_coe hne]
    have hl : ∀ t, (oh t * ((1 / ∑ t, o t : ℝ) : EReal)) * (r t : EReal)
        = ((o t * (1 / ∑ t, o t) * r t : ℝ) : EReal) := by
      intro t
      rw [hcoe t, ← EReal.coe_mul, ← EReal.coe_mul]
    have hr : ∀ t, oh t * (r t : EReal) = ((o t * r t : ℝ) : EReal) := by
      intro t
      rw [hcoe t, ← EReal.coe_mul]
    rw [Finset.sum_congr rfl (fun t _ => hl t), Finset.sum_congr rfl (fun t _ => hr t),
      ← coe_finset_sum, ← coe_finset_sum, ← EReal.coe_mul]
    congr 1
    rw [Finset.sum_mul]
    exact Finset.sum_congr rfl (fun t _ => by ring)

theorem weight_sum_law {ι : Type} [Fintype ι] (oh : ι → EReal) (hoh : ∀ t, oh t = 0 ∨ oh t = 1) :
    ∑ t, oh t * weight (∑ t, oh t) = if 0 < ∑ t, oh t then 1 else 0 := by
  classical
  set o : ι → ℝ := fun t => (oh t).toReal with ho_def
  have hcoe : ∀ t, oh t = ((o t : ℝ) : EReal) := fun t => (zero_one_real (oh t) (hoh t)).1
  have ho : ∀ t, o t = 0 ∨ o t = 1 := fun t => (zero_one_real (oh t) (hoh t)).2
  have hsum : ∑ t, oh t = ((∑ t, o t : ℝ) : EReal) := by
    rw [coe_finset_sum]
    exact Finset.sum_congr rfl (fun t _ => hcoe t)
  rcases zero_one_sum o ho with hz | hN
  · have hz' : ∀ t, oh t = 0 := fun t => by rw [hcoe t, hz t, EReal.coe_zero]
    have h0 : ∑ t, oh t = 0 := Finset.sum_eq_zero (fun t _ => hz' t)
    have hl : ∑ t, oh t * weight (∑ t, oh t) = 0 :=
      Finset.sum_eq_zero (fun t _ => by rw [hz' t, zero_mul])
    rw [hl, h0, if_neg (lt_irrefl _)]
  · have hne : (∑ t, o t) ≠ 0 := by linarith
    have hpos : (0 : EReal) < ((∑ t, o t : ℝ) : EReal) := by
      exact_mod_cast (lt_of_lt_of_le one_pos hN)
    rw [hsum, weight_coe_of_one_le hN, if_pos hpos]
    have hl : ∀ t, oh t * ((1 / ∑ t, o t : ℝ) : EReal) = ((o t * (1 / ∑ t, o t) : ℝ) : EReal) := by
      intro t
      rw [hcoe t, ← EReal.coe_mul]
    rw [Finset.sum_congr rfl (fun t _ => hl t), ← coe_finset_sum, ← Finset.sum_mul, ← EReal.coe_one]
    congr 1
    field_simp

/-! ## The two arrangements of the mean agree -/

theorem pooledWeighted_eq_pooledDiv (x : FVec Ideal SX .f32) (g : IVec SG 32)
    (hx : ∀ i : SX.Idx, ∃ r : ℝ, x i = (r : EReal)) : pooledWeighted x g = pooledDiv x g := by
  funext i
  choose r hr using hx
  unfold pooledWeighted pooledDiv pooledWeightedAt pooledDivAt count
  simp only [hr]
  exact mean_law (fun t : Fin 2048 => ind (g (ix2 (i 0) t)) (i 1).val) (fun t => r (ix3 (i 0) t (i 2)))
    (fun t => ind_cases _ _)

theorem weightSum_eq_nonempty (g : IVec SG 32) : weightSum g = nonempty g := by
  funext i
  unfold weightSum nonempty weightSumAt nonemptyAt count
  exact weight_sum_law (fun t : Fin 2048 => ind (g (ix2 (i 0) t)) (i 1).val) (fun t => ind_cases _ _)

end Cert.SegPool

end
-- ==== Proof.Finite.lean ====
/-
  Finiteness of the frames from the stated precondition.

  The precondition compares |x| with the 32-bit float pattern 0x7F800000 elementwise (ordered "less than") and takes
  the conjunction of all the answers. That pattern denotes +∞ (exponent field all ones, fraction 0, sign 0), so the
  conjunction being true says |x i| < +∞ at every index i. On the extended reals |a| = max a (-a), which is +∞ at
  both infinities; hence every x i is a real number.
-/
import proofs.«161840_j21569325761126_1_alg».proof.Pre_finite_inputs
import proofs.«161840_j21569325761126_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.SegPool

open Idealize.ShloMosaic

/-- The shape with no axes has exactly one index. -/
instance subsingleton_scalarIdx : Subsingleton Cert.Pre_finite_inputs.S_.Idx :=
  ⟨fun a b => funext fun d => d.elim0⟩

/-- The 32-bit float pattern 0x7F800000 (sign 0, exponent field 255, fraction 0) denotes +∞. -/
theorem ofBits_f32_posInf : Ideal.ofBits .f32 0x7F800000#32 = (⊤ : EReal) := by
  simp [Ideal.ofBits, Ideal.ieee]

/-- An extended real whose absolute value max a (-a) is below +∞ is a real number. -/
theorem exists_real_of_abs_lt_top (a : EReal) (h : max a (-a) < ⊤) : ∃ r : ℝ, a = (r : EReal) := by
  induction a using EReal.rec with
  | bot => simp at h
  | coe r => exact ⟨r, rfl⟩
  | top => simp at h

/-- An ordered "less than" on the extended reals answers 1 exactly when the strict inequality holds. -/
theorem cmp_olt_eq_one {a b : EReal} (h : Ideal.cmp .olt a b = 1#1) : a < b := by
  unfold Ideal.cmp at h
  by_contra hn
  simp [hn] at h

theorem finite_of_pre (x : FVec Ideal Cert.Pre_finite_inputs.S32x2048x1024 .f32) (a : IVec Cert.Pre_finite_inputs.S32x2049 32)
    (h : Cert.Pre_finite_inputs.fn (F := Ideal) x a = (fun _ => 1#1)) : ∀ i, ∃ r : ℝ, x i = (r : EReal) := by
  intro i
  have h0 := congrFun h ValueIdx.ix0
  dsimp only [Cert.Pre_finite_inputs.fn] at h0
  have hi := Host.reduce_andi_all _ _ _ _ _ h0 i
  rw [ValueIdx.cmpf_apply, Ideal.cmpf_def] at hi
  have hlt := cmp_olt_eq_one hi
  have hb : broadcastInDim Cert.Pre_finite_inputs.S32x2048x1024 ![]
      Cert.Pre_finite_inputs.Facts.bcast_S_S32x2048x1024
      (constant (F := Ideal) Cert.Pre_finite_inputs.S_ .f32 0x7F800000#32) i = (⊤ : EReal) := by
    rw [broadcastInDim_apply _ _ _ i ValueIdx.ix0 (fun d => d.elim0), ValueIdx.constant_apply, ofBits_f32_posInf]
  rw [hb] at hlt
  exact exists_real_of_abs_lt_top (x i) hlt

end Cert.SegPool

end
-- ==== Proof.KEntry.lean ====
/-
  What the kernel's region finds in its segment-id operand.

  Before the region the host turns the boundary flags into one segment id per frame (keep the first 2048 flags of a
  row, force a boundary at frame 0, running sum, minus one) and gives the row a unit middle axis, [32, 2048] to
  [32, 1, 2048]. That chain is the specification's `segOf`, operation for operation; it is compared as a whole and
  never opened: the running sum and the column write stay folded while the two spellings are matched.
-/
import proofs.«161840_j21569325761126_1_alg».proof.Proof.Gen.KernelIdeal.Frame
import proofs.«161840_j21569325761126_1_alg».proof.Proof.Spec
import Idealize.ShloMosaic.Lib.StableHlo.Run

noncomputable section

namespace Cert.KernelIdeal.PoolValue

open Cert.KernelIdeal Cert.KernelIdeal.Gen Idealize.ShloMosaic Idealize.ShloMosaic.TcCoe Idealize.SL.Sem

variable (m : (ℓ : Loc nD τ sig) → Buf (Elt Ideal) ℓ)

attribute [local irreducible] Host.reduceWindow Host.scatter in
set_option maxRecDepth 8192 in
set_option maxHeartbeats 400000 in
/-- At the region's entry the segment-id operand holds, at (b, 0, t), the segment id of frame t of row b. -/
theorem seg_entry (c : Dev nD) :
    (V m c main_v7 : S32x1x2048.Idx → BitVec 32)
      = broadcastInDim S32x1x2048 ![0, 2] bcast_S32x2048_S32x1x2048_0_2 (Cert.SegPool.segOf (m ((c : Thread nD τ).loc main_arg1))) := by
  dsimp only [Gen.V, Gen.V0]
  simp only [Gen.hostOps0, Gen.hostOps0_1, Gen.hostOps0_2, List.flatten_cons, List.flatten_nil, List.append_nil, List.cons_append,
    List.nil_append]
  after_results
  rfl

end Cert.KernelIdeal.PoolValue

end
-- ==== Proof.Payload.lean ====
/-
  The pooling kernel's two stored values, read at an index, at the ideal values.

  One grid step sees one batch row: the 2048 segment ids of the row's frames, `g t`, and the row's 2048×1024 block of
  frames, `x (t, d)`. The body builds the 128×2048 mask `M (s, t)` = 1 if `g t` is segment `s`, else 0 (a comparison of
  the row index with the ids, widened and converted to a float), and stores
    * the product of the mask with the block:  out (s, d) = Σ_t M (s, t) · x (t, d),
    * the sum of the mask along each row:      cnt s      = Σ_t M (s, t).
  Both are stated here over the indicator `ind` of the shared specification: `M (s, t) = ind (g t) s`.
  Narrowing to bf16 changes nothing at the ideal values, and a cast between [1, a, b] and [a, b] only renames indices.
-/
import proofs.«161840_j21569325761126_1_alg».proof.Proof.Gen.KernelIdeal.Skeleton
import proofs.«161840_j21569325761126_1_alg».proof.Proof.Spec
import Idealize.ShloMosaic.Lib.ValueLayout
import Idealize.ShloMosaic.PureOps.Ideal.Laws

noncomputable section

open scoped BigOperators

namespace Cert.KernelIdeal.PoolValue

open Idealize.ShloMosaic Idealize.ShloMosaic.ValueIdx Cert.KernelIdeal Cert.KernelIdeal.Gen Cert.SegPool

/-! ## The mask -/

/-- The one-bit outcome of "a = b" on 32-bit words, widened to 32 bits and read as a signed integer, is the real number
    1 when the words are equal and 0 when they are not. -/
theorem mask_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := beq_eq_false_iff_ne.mpr h
    simp [IntOp.cmpi, FloatOps.sitofp, hb, h]

/-- The mask at (s, t): the row index `s` (as a 32-bit word) compared with the id of frame `t` — the indicator that
    frame `t` belongs to segment `s`. The comparison has the row index on its left and `ind` has it on its right; equality
    is symmetric. -/
theorem pay1_apply (v0 : Vec Ideal S1x1x2048 .i32) (s : Fin 128) (t : Fin 2048) :
    k0_pay1 (F := Ideal) v0 (ix2 s t) = ind (v0 (ix3 (0 : Fin 1) (0 : Fin 1) t)) s.val := by
  unfold k0_pay1
  show FloatOps.sitofp (F := Ideal) .f32 ((IntOp.cmpi .eq (iota .tc S128x2048 32 [0] iota_S128x2048_d0_w32 (ix2 s t))
      (broadcastTo S128x2048 (shapeCast S1x2048 v0 shapeCasts_S1x1x2048_S1x2048) broadcasts_S1x2048_S128x2048 (ix2 s t))).setWidth 32) = _
  rw [mask_word, iota_single_apply, broadcastTo_1b_ab_apply, shapeCast_1ab_ab_apply]
  unfold ind
  exact if_congr eq_comm rfl rfl

/-! ## The row sums of the mask -/

/-- The sum of a 128×2048 array along its second axis, read at row `s`, is the sum over `t` of the entries (s, t): the
    reduced index with the coordinate `t` put back on axis 1 is (s, t). -/
theorem lane_sum (src : FVec Ideal S128x2048 .f32) (h : S128x2048.Reduces [1] S128) (hφ : FKind.Formats .f32)
    (hacc : (0x00000000#32 : BitVec 32) = 0x00000000#32) (s : Fin 128) :
    multiReduction (F := Ideal) .add [1] S128 src 0x00000000#32 h hφ hacc (ix1 s) = ∑ t : Fin 2048, src (ix2 s t) := by
  refine (Ideal.multiReduction_add_single src 0x00000000#32 h hφ hacc (ix1 s)).trans ?_
  refine Finset.sum_congr rfl fun t _ => congrArg src ?_
  funext a
  apply Fin.ext
  match a with
  | ⟨0, _⟩ => rfl
  | ⟨1, _⟩ => rfl

/-- The stored count of segment `s`: the number of frames of the row whose id is `s`, as the sum of the indicators. -/
theorem pay3_apply (v0 : Vec Ideal S1x1x2048 .i32) (s : Fin 128) :
    k0_pay3 (F := Ideal) v0 (ix3 (0 : Fin 1) (0 : Fin 1) s) = ∑ t : Fin 2048, ind (v0 (ix3 (0 : Fin 1) (0 : Fin 1) t)) s.val := by
  unfold k0_pay3
  refine (shapeCast_ab_1ab_apply _ _ (0 : Fin 1) (0 : Fin 1) s).trans ?_
  refine (shapeCast_a_1a_apply _ _ (0 : Fin 1) s).trans ?_
  refine (lane_sum _ _ _ _ s).trans ?_
  exact Finset.sum_congr rfl fun t _ => pay1_apply v0 s t

/-! ## The mask times the block of frames -/

/-- The product of a 128×2048 array with a 2048×1024 array, accumulated into zero, read at (s, d): the sum over the one
    contracted coordinate `t` of A (s, t) · B (t, d). The contraction's index set has one axis of extent 2048 and is
    re-indexed by that coordinate; the left operand's index at (s, d) and `t` is (s, t), the right operand's is (t, d). -/
theorem matmul_apply_ix (A : FVec Ideal S128x2048 .bf16) (B : FVec Ideal S2048x1024 .bf16) (s : Fin 128) (d : Fin 1024) :
    matmul dot_S128x2048_S2048x1024_S128x1024_1_0_0_1_n_n none A B (constant (F := Ideal) S128x1024 .f32 0x00000000#32) (ix2 s d)
      = ∑ t : Fin 2048, A (ix2 s t) * B (ix2 t d) := by
  show FloatOps.matmul _ none A B _ (ix2 s d) = _
  rw [Ideal.matmul_constant_zero_apply,
    ← Equiv.sum_comp (contrEquiv1 dot_S128x2048_S2048x1024_S128x1024_1_0_0_1_n_n 2048 rfl rfl).symm]
  refine Finset.sum_congr rfl fun t _ => ?_
  have c2 := contrEquiv1_symm_val dot_S128x2048_S2048x1024_S128x1024_1_0_0_1_n_n 2048 rfl rfl t
  have l2 : dot_S128x2048_S2048x1024_S128x1024_1_0_0_1_n_n.lhsIdx (ix2 s d) ((contrEquiv1 _ 2048 rfl rfl).symm t) = ix2 s t := by
    funext ax; apply Fin.ext
    match ax with
    | ⟨0, _⟩ => simp [DotDims.lhsIdx, dot_S128x2048_S2048x1024_S128x1024_1_0_0_1_n_n]; rfl
    | ⟨1, _⟩ => simp [DotDims.lhsIdx, dot_S128x2048_S2048x1024_S128x1024_1_0_0_1_n_n]; exact c2
  have r2 : dot_S128x2048_S2048x1024_S128x1024_1_0_0_1_n_n.rhsIdx (ix2 s d) ((contrEquiv1 _ 2048 rfl rfl).symm t) = ix2 t d := by
    funext ax; apply Fin.ext
    match ax with
    | ⟨0, _⟩ => simp [DotDims.rhsIdx, dot_S128x2048_S2048x1024_S128x1024_1_0_0_1_n_n]; exact c2
    | ⟨1, _⟩ => simp [DotDims.rhsIdx, dot_S128x2048_S2048x1024_S128x1024_1_0_0_1_n_n]; rfl
  rw [l2, r2]

/-- The stored pooled sums at (s, d): the sum over the row's frames `t` of the indicator "frame `t` is in segment `s`"
    times the frame's entry `d`. -/
theorem pay2_apply (v0 : Vec Ideal S1x1x2048 .i32) (v8 : Vec Ideal S1x2048x1024 .f32) (s : Fin 128) (d : Fin 1024) :
    k0_pay2 (F := Ideal) v0 v8 (ix3 (0 : Fin 1) s d) = ∑ t : Fin 2048, ind (v0 (ix3 (0 : Fin 1) (0 : Fin 1) t)) s.val * v8 (ix3 (0 : Fin 1) t d) := by
  unfold k0_pay2
  refine (shapeCast_ab_1ab_apply _ _ (0 : Fin 1) s d).trans ?_
  refine (matmul_apply_ix _ _ s d).trans ?_
  refine Finset.sum_congr rfl fun t _ => ?_
  refine congrArg₂ (· * ·) ?_ ?_
  · exact (truncf_apply (ψ := .bf16) _ bitsLt_bf16_f32 _).trans (pay1_apply v0 s t)
  · exact (truncf_apply (ψ := .bf16) _ bitsLt_bf16_f32 _).trans (shapeCast_1ab_ab_apply _ _ t d)

end Cert.KernelIdeal.PoolValue

end
-- ==== Proof.KBlocks.lean ====
/-
  From blocks to arrays: what the pooling region leaves in its two result arrays.

  The region runs once per batch row b (32 grid points). At row b it is handed block b of the segment-id operand
  (the 2048 ids of that row) and block b of the frames (the row's 2048×1024 entries), and writes back block b of the
  pooled sums (128×1024) and of the counts (128). So the two arrays after the region are, as whole functions,
    rawPooled (b, s, d) = Σ_t [id of frame t of row b is s] · x (b, t, d)        and
    rawCount  (b, 0, s) = Σ_t [id of frame t of row b is s].
  The steps: each window's block index at point t is (t, 0, 0), decided over the grid; a block's element sits in its array
  at block index × block size + its own coordinate; hence the input blocks read back rows of the ids and of x, the
  stored payloads are the sums above, and the 32 blocks tile each result array (row b is covered by point b).
-/
import proofs.«161840_j21569325761126_1_alg».proof.Proof.KEntry
import proofs.«161840_j21569325761126_1_alg».proof.Proof.Payload
import Idealize.ShloMosaic.Lib.Pipeline.Value
import Idealize.ShloMosaic.Lib.ValueIdx

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx Cert.SegPool
open Idealize.ShloMosaic.Pipeline (Dat)

variable (m : (ℓ : Loc nD τ sig) → Buf (Elt Ideal) ℓ)

/-- The pooled sums before the division: for row b, segment s, column d, the sum of the entries d of the frames of row b
    whose segment id is s. -/
def rawPooled (x : FVec Ideal SX .f32) (g : IVec SG 32) : S32x128x1024.Idx → EReal :=
  fun i => ∑ t : Fin 2048, ind (g (ix2 (i 0) t)) (i 1).val * x (ix3 (i 0) t (i 2))
/-- The counts: for row b and segment s (a unit middle axis), the number of frames of row b whose segment id is s. -/
def rawCount (g : IVec SG 32) : S32x1x128.Idx → EReal :=
  fun i => ∑ t : Fin 2048, ind (g (ix2 (i 0) t)) (i 2).val

/-- The zero offsets of a rank-3 access, however spelt. -/
theorem hz3 : (![0, 0, 0] : Fin 3 → Nat) = fun _ => 0 := funext fun a => by fin_cases a <;> rfl

/-- The four index maps over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The ids block at point t, read at (0, 0, k), is the segment id of frame k of row t. -/
theorem seg_block (c : Dev nD) (t : Fin cfg0.N) (k : Fin 2048) :
    iblk m c 0 t (ix3 (0 : Fin 1) (0 : Fin 1) k) = segOf (m ((c : Thread nD τ).loc main_arg1)) (ix2 (⟨t.val, by have := t.isLt; have h : cfg0.N = 32 := N_0; omega⟩ : Fin 32) k) := by
  show V m c main_v7 (((cfg0.win 0).blk t).view.emb (ix3 (0 : Fin 1) (0 : Fin 1) k)) = _
  rw [seg_entry]
  obtain ⟨e0, e1, e2, -⟩ := idx_facts t
  refine broadcastInDim_apply _ _ _ _ _ (fun a => ?_)
  match a with
  | ⟨0, _⟩ =>
    show t.val = if (32:Nat) = 1 then 0 else (win0_0.index t (0 : Fin 3) * 1 + 1 * 0)
    rw [if_neg (by decide)]; omega
  | ⟨1, _⟩ =>
    show k.val = if (2048:Nat) = 1 then 0 else (win0_0.index t (2 : Fin 3) * 2048 + 1 * k.val)
    rw [if_neg (by decide)]; omega

/-- The frames block at point t, read at (0, k, d), is x at (t, k, d). -/
theorem x_block (c : Dev nD) (t : Fin cfg0.N) (k : Fin 2048) (d : Fin 1024) :
    iblk m c 1 t (ix3 (0 : Fin 1) k d) = m ((c : Thread nD τ).loc main_arg0) (ix3 (⟨t.val, by have := t.isLt; have h : cfg0.N = 32 := N_0; omega⟩ : Fin 32) k d) := by
  show V m c main_arg0 (((cfg0.win 1).blk t).view.emb (ix3 (0 : Fin 1) k d)) = _
  rw [V_main_arg0]
  obtain ⟨-, -, -, e0, e1, e2, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 2048 + 1 * k.val = k.val; omega
  | ⟨2, _⟩ => show win0_1.index t (2 : Fin 3) * 1024 + 1 * d.val = d.val; omega

/-- The grid point t read as the batch row it serves. -/
def rowOf (t : Fin cfg0.N) : Fin 32 := ⟨t.val, by have := t.isLt; have h : cfg0.N = 32 := N_0; omega⟩

/-- Element (0, s, d) of the pooled-sums block at point t sits at (t, s, d) of the array. -/
theorem emb2 (t : Fin cfg0.N) (s : Fin 128) (d : Fin 1024) :
    ((cfg0.win 2).blk t).view.emb (ix3 (0 : Fin 1) s d) = (ix3 (rowOf t) s d : S32x128x1024.Idx) := by
  obtain ⟨-, -, -, -, -, -, e0, e1, e2, -⟩ := idx_facts t
  refine funext fun a => Fin.ext ?_
  match a with
  | ⟨0, _⟩ => show win0_2.index t (0 : Fin 3) * 1 + 1 * 0 = t.val; omega
  | ⟨1, _⟩ => show win0_2.index t (1 : Fin 3) * 128 + 1 * s.val = s.val; omega
  | ⟨2, _⟩ => show win0_2.index t (2 : Fin 3) * 1024 + 1 * d.val = d.val; omega

/-- Element (0, 0, s) of the counts block at point t sits at (t, 0, s) of the array. -/
theorem emb3 (t : Fin cfg0.N) (s : Fin 128) :
    ((cfg0.win 3).blk t).view.emb (ix3 (0 : Fin 1) (0 : Fin 1) s) = (ix3 (rowOf t) (0 : Fin 1) s : S32x1x128.Idx) := by
  obtain ⟨-, -, -, -, -, -, -, -, -, e0, e1, e2⟩ := idx_facts t
  refine funext fun a => Fin.ext ?_
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 128 + 1 * s.val = s.val; omega

/-- What point t writes back to the pooled sums is block t of `rawPooled`. -/
theorem flushed2_eq (c : Dev nD) (t : Fin cfg0.N) :
    (dats m 0 c).flushed 2 t = ((cfg0.win 2).blk t).view.read (Elt Ideal) (rawPooled (m ((c : Thread nD τ).loc main_arg0)) (segOf (m ((c : Thread nD τ).loc main_arg1)))) := by
  show (cfg0.win 2).cut (grid0.coords t) ((dats m 0 c).after 2 t) = _
  rw [after0_2]
  unfold out0_2
  rw [View.canon_unit_zero hz3]
  simp only [View.ld_unit_zero (S := S1x1x2048) hz3, View.ld_unit_zero (S := S1x2048x1024) hz3]
  funext j
  obtain ⟨j0, s, d, rfl⟩ : ∃ (j0 : Fin 1) (s : Fin 128) (d : Fin 1024), j = ix3 j0 s d := ⟨j 0, j 1, j 2, eq_ix3 j⟩
  obtain rfl : j0 = 0 := Subsingleton.elim _ _
  show k0_pay2 (iblk m c 0 t) (iblk m c 1 t) (ix3 (0 : Fin 1) s d)
    = rawPooled (m ((c : Thread nD τ).loc main_arg0)) (segOf (m ((c : Thread nD τ).loc main_arg1))) (((cfg0.win 2).blk t).view.emb (ix3 (0 : Fin 1) s d))
  rw [emb2]
  refine (pay2_apply _ _ s d).trans ?_
  unfold rawPooled
  refine Finset.sum_congr rfl fun k _ => ?_
  rw [seg_block, x_block]
  rfl

/-- What point t writes back to the counts is block t of `rawCount`. -/
theorem flushed3_eq (c : Dev nD) (t : Fin cfg0.N) :
    (dats m 0 c).flushed 3 t = ((cfg0.win 3).blk t).view.read (Elt Ideal) (rawCount (segOf (m ((c : Thread nD τ).loc main_arg1)))) := by
  show (cfg0.win 3).cut (grid0.coords t) ((dats m 0 c).after 3 t) = _
  rw [after0_3]
  unfold out0_3
  rw [View.canon_unit_zero hz3]
  simp only [View.ld_unit_zero (S := S1x1x2048) hz3]
  funext j
  obtain ⟨j0, j1, s, rfl⟩ : ∃ (j0 : Fin 1) (j1 : Fin 1) (s : Fin 128), j = ix3 j0 j1 s := ⟨j 0, j 1, j 2, eq_ix3 j⟩
  obtain rfl : j0 = 0 := Subsingleton.elim _ _
  obtain rfl : j1 = 0 := Subsingleton.elim _ _
  show k0_pay3 (iblk m c 0 t) (ix3 (0 : Fin 1) (0 : Fin 1) s)
    = rawCount (segOf (m ((c : Thread nD τ).loc main_arg1))) (((cfg0.win 3).blk t).view.emb (ix3 (0 : Fin 1) (0 : Fin 1) s))
  rw [emb3]
  refine (pay3_apply _ s).trans ?_
  unfold rawCount
  refine Finset.sum_congr rfl fun k _ => ?_
  rw [seg_block]
  rfl

/-- An index is in point t's pooled-sums block iff each coordinate is in the block's range on its axis. -/
theorem mem_blk2 (t : Fin cfg0.N) (i : S32x128x1024.Idx) :
    i ∈ ((cfg0.win 2).blk t).view.set ↔ ∀ a : Fin 3, win0_2.index t a * S1x128x1024.size a ≤ (i a).val ∧ (i a).val < win0_2.index t a * S1x128x1024.size a + S1x128x1024.size a := by
  show i ∈ ((View.whole main_v8_0).slice (win0_2.rect t)).set ↔ _
  rw [View.set_slice_whole, Rect.mem_set_unit]
  exact Iff.rfl

/-- The same for the counts block. -/
theorem mem_blk3 (t : Fin cfg0.N) (i : S32x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v8_1).slice (win0_3.rect t)).set ↔ _
  rw [View.set_slice_whole, Rect.mem_set_unit]
  exact Iff.rfl

/-- Every index (b, s, d) of the pooled sums is in the block of point b. -/
theorem cover2 (i : S32x128x1024.Idx) : ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 1024 := (i 2).isLt
  let t : Fin cfg0.N := ⟨(i 0).val, by show (i 0).val < grid0.N; rw [N_0]; exact hi0⟩
  obtain ⟨-, -, -, -, -, -, e0, e1, e2, -⟩ := idx_facts t
  have ht : t.val = (i 0).val := rfl
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1024 ≤ (i 2).val ∧ (i 2).val < win0_2.index t (2 : Fin 3) * 1024 + 1024; omega

/-- Every index (b, 0, s) of the counts is in the block of point b. -/
theorem cover3 (i : S32x1x128.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 128 := (i 2).isLt
  let t : Fin cfg0.N := ⟨(i 0).val, by show (i 0).val < grid0.N; rw [N_0]; exact hi0⟩
  obtain ⟨-, -, -, -, -, -, -, -, -, e0, e1, e2⟩ := idx_facts t
  have ht : t.val = (i 0).val := rfl
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

/-- After the region the pooled-sums array is `rawPooled` of the frames and the segment ids. -/
theorem final2 (c : Dev nD) : (dats m 0 c).arrAt 2 cfg0.N = rawPooled (m ((c : Thread nD τ).loc main_arg0)) (segOf (m ((c : Thread nD τ).loc main_arg1))) :=
  (dats m 0 c).arrAt_eq_of_cover 2 _ (fun t _ => flushed2_eq m c t) cover2

/-- After the region the counts array is `rawCount` of the segment ids. -/
theorem final3 (c : Dev nD) : (dats m 0 c).arrAt 3 cfg0.N = rawCount (segOf (m ((c : Thread nD τ).loc main_arg1))) :=
  (dats m 0 c).arrAt_eq_of_cover 3 _ (fun t _ => flushed3_eq m c t) cover3

end Cert.KernelIdeal.PoolValue

end
-- ==== Proof.KTailValue.lean ====
/-
  The host operations that follow the pooling region, read at one index.

  The raw pooled sums P[b, s, d] are divided by max(C[b, 0, s], 1), the count C being reshaped from [32, 1, 128] to
  [32, 128], compared with the constant 1 and spread along the feature axis; and the flag "C[b, 0, s] > 0" is turned
  into the number 1 or 0. Reading each layout operation at an index (a reshape keeps the row-major position, a
  broadcast drops the new axes, a constant is its value everywhere) leaves exactly those scalar expressions.
-/
import proofs.«161840_j21569325761126_1_alg».proof.Proof.Gen.KernelIdeal
import proofs.«161840_j21569325761126_1_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Tactic

noncomputable section

namespace Cert.KernelIdeal.PoolValue

open Idealize.ShloMosaic Idealize.ShloMosaic.ValueIdx
open Cert.KernelIdeal Cert.KernelIdeal.Facts₀

/-- The 32-bit float pattern 0x3F800000 (sign 0, exponent field 127, fraction 0) denotes the number 1. -/
theorem one_f32 : Ideal.ofBits .f32 0x3F800000#32 = 1 := by
  simp [Ideal.ofBits, Ideal.ieee]
  -- what is left is 2^23 * (2^23)⁻¹ = 1 in the reals
  rw [← EReal.coe_mul, ← EReal.coe_one]
  congr 1
  norm_num

/-- The count of segment (b, s), reshaped from [32, 1, 128] to [32, 128], read at (b, s). -/
theorem count_reshape_apply (C : FVec Ideal S32x1x128 .f32) (b : Fin 32) (s : Fin 128) :
    shapeCast S32x128 C shapeCasts_S32x1x128_S32x128 (ix2 b s) = C (ix3 b (0 : Fin 1) s) := by
  refine shapeCast_apply C _ (ix2 b s) (ix3 b (0 : Fin 1) s) ?_
  rw [Shape.rowMajor_val_three, Shape.rowMajor_val_two]
  show (b.val * 1 + 0) * 128 + s.val = b.val * 128 + s.val
  omega

/-- A scalar constant spread over [32, 128] is its value at every index. -/
theorem splat_apply (w : BitVec 32) (b : Fin 32) (s : Fin 128) :
    broadcastInDim S32x128 ![] bcast_S_S32x128 (constant (F := Ideal) S_ .f32 w) (ix2 b s) = Ideal.ofBits .f32 w := by
  rw [broadcastInDim_apply _ _ _ (ix2 b s) ix0 (fun a => a.elim0), constant_apply]

theorem tail_pooled_apply (P : FVec Ideal S32x128x1024 .f32) (C : FVec Ideal S32x1x128 .f32) (b : Fin 32) (s : Fin 128) (d : Fin 1024) :
    Host.divf (F := Ideal) P
      (broadcastInDim S32x128x1024 ![0, 1, 2] bcast_S32x128x1_S32x128x1024_0_1_2
        (broadcastInDim S32x128x1 ![0, 1] bcast_S32x128_S32x128x1_0_1
          (maximumf (shapeCast S32x128 C shapeCasts_S32x1x128_S32x128)
            (broadcastInDim S32x128 ![] bcast_S_S32x128 (constant (F := Ideal) S_ .f32 0x3F800000#32))))) (ix3 b s d)
      = Ideal.div (P (ix3 b s d)) (max (C (ix3 b (0 : Fin 1) s)) 1) := by
  show Ideal.div (P (ix3 b s d)) _ = _
  refine congrArg (Ideal.div (P (ix3 b s d))) ?_
  rw [broadcastInDim_apply _ _ _ (ix3 b s d) (ix3 b s (0 : Fin 1))
        (fun a => by match a with | ⟨0, _⟩ => rfl | ⟨1, _⟩ => rfl | ⟨2, _⟩ => rfl),
      broadcastInDim_apply _ _ _ (ix3 b s (0 : Fin 1)) (ix2 b s)
        (fun a => by match a with | ⟨0, _⟩ => rfl | ⟨1, _⟩ => rfl),
      maximumf_apply, count_reshape_apply, splat_apply, one_f32]

theorem tail_flag_apply (C : FVec Ideal S32x1x128 .f32) (b : Fin 32) (s : Fin 128) :
    uitofp (F := Ideal) .f32
      (cmpf .ogt (shapeCast S32x128 C shapeCasts_S32x1x128_S32x128)
        (broadcastInDim S32x128 ![] bcast_S_S32x128 (constant (F := Ideal) S_ .f32 0x00000000#32))) (ix2 b s)
      = if 0 < C (ix3 b (0 : Fin 1) s) then 1 else 0 := by
  show (((Ideal.cmp .ogt (shapeCast S32x128 C shapeCasts_S32x1x128_S32x128 (ix2 b s))
      (broadcastInDim S32x128 ![] bcast_S_S32x128 (constant (F := Ideal) S_ .f32 0x00000000#32) (ix2 b s))).toNat : ℝ) : EReal) = _
  rw [count_reshape_apply, splat_apply, Ideal.ofBits_zero_f32]
  unfold Ideal.cmp
  by_cases h : 0 < C (ix3 b (0 : Fin 1) s)
  · simp [h]
  · simp [h]

end Cert.KernelIdeal.PoolValue

end
-- ==== Proof.KRun.lean ====
/-
  The pooling kernel's run, read back: what its two float results hold at the end.

  After the region the pooled-sums array is `rawPooled` and the counts array `rawCount` (the blocks-to-arrays module).
  The lines after the region then divide each pooled sum by max(count, 1), the count of its own row and segment
  broadcast along the columns, and turn "count > 0" into 1 or 0. Read index by index that is the specification's
  divide-last arrangement: `pooledDiv` and `nonempty` of the frames and the segment ids. The run below is the frame
  run with those two results and the two untouched arguments named.
-/
import proofs.«161840_j21569325761126_1_alg».proof.Proof.KBlocks
import proofs.«161840_j21569325761126_1_alg».proof.Proof.KTailValue

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx Cert.SegPool
open Idealize.ShloMosaic.Pipeline (Dat)

variable (m : (ℓ : Loc nD τ sig) → Buf (Elt Ideal) ℓ) (ρ : Dev nD → PrngReg)

/-- What the lines after the region find in the pooled-sums array. -/
theorem arr2 (c : Dev nD) :
    Pipeline.withArrays (cfgs 0).spec c (V0 m c) (fun w => (dats m 0 c).arrAt w (cfgs 0).N) (Proc.devRef .tc main_v8_0)
      = rawPooled (m ((c : Thread nD τ).loc main_arg0)) (segOf (m ((c : Thread nD τ).loc main_arg1))) :=
  (Pipeline.withArrays_arr spec0 launch0.win.arr_inj c _ _ 2).trans (final2 m c)

/-- What they find in the counts array. -/
theorem arr3 (c : Dev nD) :
    Pipeline.withArrays (cfgs 0).spec c (V0 m c) (fun w => (dats m 0 c).arrAt w (cfgs 0).N) (Proc.devRef .tc main_v8_1)
      = rawCount (segOf (m ((c : Thread nD τ).loc main_arg1))) :=
  (Pipeline.withArrays_arr spec0 launch0.win.arr_inj c _ _ 3).trans (final3 m c)

set_option maxHeartbeats 400000 in
/-- The first result: at (b, s, d) the pooled sum of row b, segment s, column d, divided by max(count of (b, s), 1). -/
theorem tail_v14 (c : Dev nD) :
    Pipeline.afterTail₀ cfgs (dats m) 0 (V0 m) [hostOps1] c main_v14
      = pooledDiv (m ((c : Thread nD τ).loc main_arg0)) (segOf (m ((c : Thread nD τ).loc main_arg1))) := by
  unfold Pipeline.afterTail₀
  show StableHlo.after hostOps1 _ (Proc.devRef .tc main_v14) = _
  after_results
  rw [arr2, arr3]
  funext i
  obtain ⟨b, s, d, rfl⟩ : ∃ (b : Fin 32) (s : Fin 128) (d : Fin 1024), i = ix3 b s d := ⟨i 0, i 1, i 2, eq_ix3 i⟩
  refine (tail_pooled_apply _ (rawCount (segOf (m ((c : Thread nD τ).loc main_arg1)))) b s d).trans ?_
  rfl

set_option maxHeartbeats 400000 in
/-- The second result: at (b, s), 1 if segment s of row b owns a frame, else 0. -/
theorem tail_v17 (c : Dev nD) :
    Pipeline.afterTail₀ cfgs (dats m) 0 (V0 m) [hostOps1] c main_v17
      = nonempty (segOf (m ((c : Thread nD τ).loc main_arg1))) := by
  unfold Pipeline.afterTail₀
  show StableHlo.after hostOps1 _ (Proc.devRef .tc main_v17) = _
  after_results
  rw [arr3]
  funext i
  obtain ⟨b, s, rfl⟩ : ∃ (b : Fin 32) (s : Fin 128), i = ix2 b s := ⟨i 0, i 1, eq_ix2 i⟩
  refine (tail_flag_apply (rawCount (segOf (m ((c : Thread nD τ).loc main_arg1)))) b s).trans ?_
  rfl

/-- Every weakly fair execution of the kernel's program ends with the pooled means at `pooledDiv`, the flags at
    `nonempty`, and both arguments as launched (the boundary flags are also the third result). -/
theorem run : θ_run defs (onTc (τ := τ) (main (F := Ideal))) ⟨m, fun _ => 0, ρ⟩ fun r => ∀ c : Dev nD,
      r.2.mem ((c.tc : Thread nD τ).loc main_v14) = pooledDiv (m ((c.tc : Thread nD τ).loc main_arg0)) (segOf (m ((c.tc : Thread nD τ).loc main_arg1)))
      ∧ r.2.mem ((c.tc : Thread nD τ).loc main_v17) = nonempty (segOf (m ((c.tc : Thread nD τ).loc main_arg1)))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have h14 := ((h c).2 main_v14 (Pipeline.mem_restRefs_of main_v14 (by decide) (by decide))).trans (tail_v14 m c)
    have h17 := ((h c).2 main_v17 (Pipeline.mem_restRefs_of main_v17 (by decide) (by decide))).trans (tail_v17 m c)
    have ha1 := ((h c).2 main_arg1 (Pipeline.mem_restRefs_of main_arg1 (by decide) (by decide))).trans (W_main_arg1 m (dats m) c)
    have ha0 := ((h c).1 1).trans (((dats m 0 c).arrAt_in 1 rfl _).trans ((A_eq m c 1).trans (V_main_arg0 m c)))
    ⟨h14, h17, ha1, ha0, ha1⟩)
    (run_main m ρ)

end Cert.KernelIdeal.PoolValue

end
-- ==== Proof.RefRun.lean ====
/-
  The reference program's run, and its two results as composed terms of the two argument arrays.

  @main is a straight line of forty host operations once its three calls are unfolded at their call sites: the
  running-sum function (a constant, its broadcast, the windowed sum), the one-hot function (two broadcasts of the
  segment ids, an iota along the segment axis and its broadcast, the comparison, the conversion of the flag to a
  float) and the select function (the fill value converted to its own type, its broadcast, the select). Every
  weakly fair execution of that line terminates with each result buffer at the composition of the operations'
  functions applied to the launch contents of the two arguments, and leaves the arguments as they were.

  The composed terms are named in stages: the segment ids (the first seven values of @main, one opaque chain), the
  one-hot array, the per-segment counts, the per-segment weights, the weighted one-hot array, and from the last the
  two results (a batched contraction against the frames, and a sum along the frame axis).
-/
import proofs.«161840_j21569325761126_1_alg».proof.Proof.Gen.ReferenceIdeal
import proofs.«161840_j21569325761126_1_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- @main's forty operations in order, each call's operations listed at the call over that call's buffers. -/
abbrev ops : List (HloOp τ sig (Elt F)) :=
  [ unary main_arg1 main_v0 ((extractStridedSlice S32x2048 ![0, 0] · slices_S32x2049_S32x2048_0_0) : (⟨S32x2049, .i32⟩ : BufTy).Contents (Elt F) → (⟨S32x2048, .i32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    nullary main_c_0 (constantI S_ 32 1#32),
    unary main_c_0 main_v2 (broadcastInDim S32 ![] bcast_S_S32 : (⟨S_, .i32⟩ : BufTy).Contents (Elt F) → (⟨S32, .i32⟩ : BufTy).Contents (Elt F)),
    ternary main_v0 main_v1 main_v2 main_v3 ((fun x i u => Host.scatter scatter_S32x2048_S1_S32_0_1_1_0 (fun _ b => b) x i u) : (⟨S32x2048, .i32⟩ : BufTy).Contents (Elt F) → (⟨S1, .i32⟩ : BufTy).Contents (Elt F) → (⟨S32, .i32⟩ : BufTy).Contents (Elt F) → (⟨S32x2048, .i32⟩ : BufTy).Contents (Elt F)),
    TRef.nullary main_call0.call0.c (constantI S_ 32 0#32),
    TRef.unary main_call0.call0.c main_call0.call0.v0 (broadcastInDim S_ ![] bcast_S_S_),
    TRef.binary (.of main_v3 : TRef sig ⟨S32x2048, .i32⟩) main_call0.call0.v0 main_call0.call0.v1 (fun x v => Host.reduceWindow IntOp.addi ![1, 2048] ![1, 1] ![0, 2047] ![0, 0] x v reduceWindows_S32x2048_S32x2048_w1s1p0_0_w2048s1p2047_0 h_S_),
    nullary main_c_1 (constantI S_ 32 1#32),
    unary main_c_1 main_v5 (broadcastInDim S32x2048 ![] bcast_S_S32x2048 : (⟨S_, .i32⟩ : BufTy).Contents (Elt F) → (⟨S32x2048, .i32⟩ : BufTy).Contents (Elt F)),
    binary main_v4 main_v5 main_v6 (subi : (⟨S32x2048, .i32⟩ : BufTy).Contents (Elt F) → (⟨S32x2048, .i32⟩ : BufTy).Contents (Elt F) → (⟨S32x2048, .i32⟩ : BufTy).Contents (Elt F)),
    TRef.unary (.of main_v6 : TRef sig ⟨S32x2048, .i32⟩) main_call1.v0 (broadcastInDim S32x2048x1 ![0, 1] bcast_S32x2048_S32x2048x1_0_1),
    TRef.nullary main_call1.v1 (iotaInDim S1x1x128 32 2),
    TRef.unary main_call1.v0 main_call1.v2 (broadcastInDim S32x2048x128 ![0, 1, 2] bcast_S32x2048x1_S32x2048x128_0_1_2),
    TRef.unary main_call1.v1 main_call1.v3 (broadcastInDim S32x2048x128 ![0, 1, 2] bcast_S1x1x128_S32x2048x128_0_1_2),
    TRef.binary main_call1.v2 main_call1.v3 main_call1.v4 (cmpi .eq),
    TRef.unary main_call1.v4 main_call1.v5 (uitofp .f32),
    nullary main_cst (constant S_ .f32 0x00000000#32),
    binary main_v7 main_cst main_v8 ((fun x v => Host.reduceAdd x v reducesTo_S32x2048x128_S32x128_d1 h_S_) : (⟨S32x2048x128, .f32⟩ : BufTy).Contents (Elt F) → (⟨S_, .f32⟩ : BufTy).Contents (Elt F) → (⟨S32x128, .f32⟩ : BufTy).Contents (Elt F)),
    nullary main_cst_2 (constant S_ .f32 0x00000000#32),
    unary main_cst_2 main_v9 (broadcastInDim S32x128 ![] bcast_S_S32x128 : (⟨S_, .f32⟩ : BufTy).Contents (Elt F) → (⟨S32x128, .f32⟩ : BufTy).Contents (Elt F)),
    binary main_v8 main_v9 main_v10 (cmpf .ogt : (⟨S32x128, .f32⟩ : BufTy).Contents (Elt F) → (⟨S32x128, .f32⟩ : BufTy).Contents (Elt F) → (⟨S32x128, .i1⟩ : BufTy).Contents (Elt F)),
    nullary main_cst_3 (constant S_ .f32 0x3F800000#32),
    unary main_cst_3 main_v11 (broadcastInDim S32x128 ![] bcast_S_S32x128 : (⟨S_, .f32⟩ : BufTy).Contents (Elt F) → (⟨S32x128, .f32⟩ : BufTy).Contents (Elt F)),
    binary main_v8 main_v11 main_v12 (maximumf : (⟨S32x128, .f32⟩ : BufTy).Contents (Elt F) → (⟨S32x128, .f32⟩ : BufTy).Contents (Elt F) → (⟨S32x128, .f32⟩ : BufTy).Contents (Elt F)),
    nullary main_cst_4 (constant S_ .f32 0x3F800000#32),
    unary main_cst_4 main_v13 (broadcastInDim S32x128 ![] bcast_S_S32x128 : (⟨S_, .f32⟩ : BufTy).Contents (Elt F) → (⟨S32x128, .f32⟩ : BufTy).Contents (Elt F)),
    binary main_v13 main_v12 main_v14 (Host.divf : (⟨S32x128, .f32⟩ : BufTy).Contents (Elt F) → (⟨S32x128, .f32⟩ : BufTy).Contents (Elt F) → (⟨S32x128, .f32⟩ : BufTy).Contents (Elt F)),
    nullary main_cst_5 (constant S_ .f32 0x00000000#32),
    TRef.unary (.of main_cst_5 : TRef sig ⟨S_, .f32⟩) main_call2.v0 id,
    TRef.unary main_call2.v0 main_call2.v1 (broadcastInDim S32x128 ![] bcast_S_S32x128),
    TRef.ternary (.of main_v10 : TRef sig ⟨S32x128, .i1⟩) (.of main_v14 : TRef sig ⟨S32x128, .f32⟩) main_call2.v1 main_call2.v2 select,
    unary main_v7 main_v16 ((transpose S32x128x2048 [0, 2, 1] · transposes_S32x2048x128_S32x128x2048_0_2_1) : (⟨S32x2048x128, .f32⟩ : BufTy).Contents (Elt F) → (⟨S32x128x2048, .f32⟩ : BufTy).Contents (Elt F)),
    unary main_v15 main_v17 (broadcastInDim S32x128x1 ![0, 1] bcast_S32x128_S32x128x1_0_1 : (⟨S32x128, .f32⟩ : BufTy).Contents (Elt F) → (⟨S32x128x1, .f32⟩ : BufTy).Contents (Elt F)),
    unary main_v17 main_v18 (broadcastInDim S32x128x2048 ![0, 1, 2] bcast_S32x128x1_S32x128x2048_0_1_2 : (⟨S32x128x1, .f32⟩ : BufTy).Contents (Elt F) → (⟨S32x128x2048, .f32⟩ : BufTy).Contents (Elt F)),
    binary main_v16 main_v18 main_v19 (mulf : (⟨S32x128x2048, .f32⟩ : BufTy).Contents (Elt F) → (⟨S32x128x2048, .f32⟩ : BufTy).Contents (Elt F) → (⟨S32x128x2048, .f32⟩ : BufTy).Contents (Elt F)),
    binary main_v19 main_arg0 main_v20 ((fun l r => Host.dotGeneral dot_S32x128x2048_S32x2048x1024_S32x128x1024_2_1_1_2_0_0 none l r) : (⟨S32x128x2048, .f32⟩ : BufTy).Contents (Elt F) → (⟨S32x2048x1024, .f32⟩ : BufTy).Contents (Elt F) → (⟨S32x128x1024, .f32⟩ : BufTy).Contents (Elt F)),
    nullary main_cst_6 (constant S_ .f32 0x00000000#32),
    binary main_v19 main_cst_6 main_v21 ((fun x v => Host.reduceAdd x v reducesTo_S32x128x2048_S32x128_d2 h_S_) : (⟨S32x128x2048, .f32⟩ : BufTy).Contents (Elt F) → (⟨S_, .f32⟩ : BufTy).Contents (Elt F) → (⟨S32x128, .f32⟩ : BufTy).Contents (Elt F)) ]

-- forty binds re-associated: the rewrite under the chain recurses once per statement
set_option maxRecDepth 1024 in
/-- @main is that straight line: the functions' definitions unfolded at their calls, both sides are one chain of
    steps once sequencing is re-associated. -/
theorem main_eq (c : Dev nD) : main (F := F) c = seq ops := by
  simp only [main, fn_cumsum.body, fn_cumsum_0.body, fn_one_hot.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., binary_bufs_sub .., nullary_bufs_sub .., binary_bufs_sub ..⟩

end Line

/-! ## The composed terms -/

/-- The segment-id chain as @main prints it: the first 2048 flags of each row, column 0 overwritten with 1, the
    running sum along the row, minus 1. -/
def segChain (a : IVec S32x2049 32) : IVec S32x2048 32 :=
  subi
    (Host.reduceWindow IntOp.addi ![1, 2048] ![1, 1] ![0, 2047] ![0, 0]
      (Host.scatter scatter_S32x2048_S1_S32_0_1_1_0 (fun _ b => b) (extractStridedSlice S32x2048 ![0, 0] a slices_S32x2049_S32x2048_0_0)
        (broadcastInDim S1 ![] bcast_S_S1 (constantI S_ 32 0#32))
        (broadcastInDim S32 ![] bcast_S_S32 (constantI S_ 32 1#32)))
      (broadcastInDim S_ ![] bcast_S_S_ (constantI S_ 32 0#32)) reduceWindows_S32x2048_S32x2048_w1s1p0_0_w2048s1p2047_0 h_S_)
    (broadcastInDim S32x2048 ![] bcast_S_S32x2048 (constantI S_ 32 1#32))

/-- The printed chain is the specification's: the same operations over the same shapes. -/
theorem segChain_eq (a : IVec S32x2049 32) : segChain a = Cert.SegPool.segOf a := rfl

/-- One-hot of the segment ids along a new last axis of 128: the id compared with the position, as a float. -/
def oneHotTerm (g : IVec S32x2048 32) : FVec Ideal S32x2048x128 .f32 :=
  uitofp .f32
    (cmpi .eq
      (broadcastInDim S32x2048x128 ![0, 1, 2] bcast_S32x2048x1_S32x2048x128_0_1_2
        (broadcastInDim S32x2048x1 ![0, 1] bcast_S32x2048_S32x2048x1_0_1 g))
      (broadcastInDim S32x2048x128 ![0, 1, 2] bcast_S1x1x128_S32x2048x128_0_1_2 (iotaInDim S1x1x128 32 2)))

/-- Frames per segment: the one-hot array summed along the frame axis, from 0. -/
def countTerm (g : IVec S32x2048 32) : FVec Ideal S32x128 .f32 :=
  Host.reduceAdd (F := Ideal) (oneHotTerm g) (constant (F := Ideal) S_ .f32 0x00000000#32) reducesTo_S32x2048x128_S32x128_d1 h_S_

/-- The weight of each segment: 1 / max(count, 1) where the count is positive, else 0. -/
def weightTerm (g : IVec S32x2048 32) : FVec Ideal S32x128 .f32 :=
  select
    (cmpf .ogt (countTerm g) (broadcastInDim S32x128 ![] bcast_S_S32x128 (constant (F := Ideal) S_ .f32 0x00000000#32)))
    (Host.divf (F := Ideal) (broadcastInDim S32x128 ![] bcast_S_S32x128 (constant (F := Ideal) S_ .f32 0x3F800000#32))
      (maximumf (countTerm g) (broadcastInDim S32x128 ![] bcast_S_S32x128 (constant (F := Ideal) S_ .f32 0x3F800000#32))))
    (broadcastInDim S32x128 ![] bcast_S_S32x128 (id (constant (F := Ideal) S_ .f32 0x00000000#32)))

/-- The one-hot array with the segment axis before the frame axis, every entry scaled by its segment's weight. -/
def scaledTerm (g : IVec S32x2048 32) : FVec Ideal S32x128x2048 .f32 :=
  mulf (transpose S32x128x2048 [0, 2, 1] (oneHotTerm g) transposes_S32x2048x128_S32x128x2048_0_2_1)
    (broadcastInDim S32x128x2048 ![0, 1, 2] bcast_S32x128x1_S32x128x2048_0_1_2
      (broadcastInDim S32x128x1 ![0, 1] bcast_S32x128_S32x128x1_0_1 (weightTerm g)))

/-- The first result: per batch row, the weighted one-hot array contracted with the frames along the frame axis. -/
def pooledTerm (x : FVec Ideal S32x2048x1024 .f32) (a : IVec S32x2049 32) : FVec Ideal S32x128x1024 .f32 :=
  Host.dotGeneral (F := Ideal) dot_S32x128x2048_S32x2048x1024_S32x128x1024_2_1_1_2_0_0 none (scaledTerm (Cert.SegPool.segOf a)) x

/-- The second result: the weighted one-hot array summed along the frame axis, from 0. -/
def weightSumTerm (a : IVec S32x2049 32) : FVec Ideal S32x128 .f32 :=
  Host.reduceAdd (F := Ideal) (scaledTerm (Cert.SegPool.segOf a)) (constant (F := Ideal) S_ .f32 0x00000000#32) reducesTo_S32x128x2048_S32x128_d2 h_S_

/-! ## The run -/

/-- The first result buffer after the line, from any contents: the fold computed operation by operation (each
    operation's result at its own buffer its function's value, elsewhere what was there), the typed references'
    transports the identity at these literal references, and what is left is the composed term itself. -/
theorem v20_eq (V : Valuation τ sig (Elt Ideal)) :
    after (ops (F := Ideal)) V (main_v20 : DevRef τ sig)
      = pooledTerm (V (main_arg0 : DevRef τ sig)) (V (main_arg1 : DevRef τ sig)) := by
  after_results_simp
  simp only [TRef.toBuf, TRef.ofBuf, cast_eq]
  unfold pooledTerm scaledTerm weightTerm countTerm oneHotTerm
  rw [← segChain_eq]
  unfold segChain
  with_reducible rfl

/-- The second result buffer after the line, likewise. -/
theorem v21_eq (V : Valuation τ sig (Elt Ideal)) :
    after (ops (F := Ideal)) V (main_v21 : DevRef τ sig) = weightSumTerm (V (main_arg1 : DevRef τ sig)) := by
  after_results_simp
  simp only [TRef.toBuf, TRef.ofBuf, cast_eq]
  unfold weightSumTerm scaledTerm weightTerm countTerm oneHotTerm
  rw [← segChain_eq]
  unfold segChain
  with_reducible rfl

/-- No operation of the line writes the first argument. -/
theorem arg0_eq (V : Valuation τ sig (Elt Ideal)) :
    after (ops (F := Ideal)) V (main_arg0 : DevRef τ sig) = V (main_arg0 : DevRef τ sig) := by
  after_results_simp

/-- No operation of the line writes the second argument. -/
theorem arg1_eq (V : Valuation τ sig (Elt Ideal)) :
    after (ops (F := Ideal)) V (main_arg1 : DevRef τ sig) = V (main_arg1 : DevRef τ sig) := by
  after_results_simp

/-- On every device, from any memory with zero counters: every weakly fair execution of @main terminates with the two
    results at the composed terms of the arguments and the arguments unchanged. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = pooledTerm (m ((c.tc : Thread nD τ).loc main_arg0)) (m ((c.tc : Thread nD τ).loc main_arg1))
      ∧ r.2.mem ((c.tc : Thread nD τ).loc main_v21) = weightSumTerm (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (v20_eq _), (h c main_v21).trans (v21_eq _),
      (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.RefWords.lean ====
/-
  Two facts about single words on the reference's side of segment mean-pooling.

  The reference builds a one-hot row by comparing a frame's segment id with each segment number and reading the one-bit
  outcome as a number: that number is the indicator `ind`. It builds each segment's weight by choosing, on "the count is
  positive", between 1 / max(count, 1) and 0: that choice is `weight`.
-/
import proofs.«161840_j21569325761126_1_alg».proof.Proof.Spec
import Idealize.ShloMosaic.Lib.IdealHost

noncomputable section

namespace Cert.ReferenceIdeal.RefWords

open Idealize.ShloMosaic

/-- The one-hot word: the one-bit result of comparing a segment id with a segment number, read as a natural number, then
    as a real, then as an extended real, is the indicator: 1 when they are equal, 0 when they are not. -/
theorem ind_word (g : BitVec 32) (s : ℕ) :
    (((IntOp.cmpi .eq g (BitVec.ofNat 32 s)).toNat : ℝ) : EReal) = Cert.SegPool.ind g s := by
  by_cases h : g = BitVec.ofNat 32 s
  · have hb : (g == BitVec.ofNat 32 s) = true := beq_iff_eq.mpr h
    simp [IntOp.cmpi, Cert.SegPool.ind, hb, h]
  · have hb : (g == BitVec.ofNat 32 s) = false := beq_eq_false_iff_ne.mpr h
    simp [IntOp.cmpi, Cert.SegPool.ind, hb, h]

/-- The choice on "count > 0" between 1 / max(count, 1) and 0 is the weight of a segment with that count. -/
theorem weight_word (n : EReal) :
    Scalar.select (Ideal.cmp .ogt n 0) (Ideal.div 1 (max n 1)) (0 : EReal) = Cert.SegPool.weight n := by
  by_cases h : 0 < n
  · simp [Scalar.select, Ideal.cmp, Cert.SegPool.weight, h]
  · simp [Scalar.select, Ideal.cmp, Cert.SegPool.weight, h]

end Cert.ReferenceIdeal.RefWords

end
-- ==== Proof.RefRead.lean ====
/-
  The two composed terms of the reference's run ARE the specification's weight-first arrangement, index by index.

  At batch row b, segment s and frame t the one-hot array reads the indicator "the id of frame t is s"; its sum along
  the frame axis is the segment's frame count; the select on "count > 0" between 1 / max(count, 1) and 0 is the
  segment's weight; the transposed one-hot array times the broadcast weight reads indicator * weight. The batched
  contraction against the frames is then, at (b, s, d), the sum over t of (indicator * weight) * x(b, t, d), and the sum
  along the frame axis is, at (b, s), the sum over t of indicator * weight.
-/
import proofs.«161840_j21569325761126_1_alg».proof.Proof.RefRun
import proofs.«161840_j21569325761126_1_alg».proof.Proof.RefWords
import Idealize.ShloMosaic.Lib.IdealHost
import Idealize.ShloMosaic.Lib.StackMember
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Idealize.SL.Sem
open Cert.SegPool (ind weight count pooledWeighted pooledWeightedAt weightSum weightSumAt segOf)

/-! ## Each stage at an index -/

/-- The one-hot array at (b, t, s): the id of frame t, broadcast along the segment axis, compared with the position s
    along that axis, as a float: the indicator. -/
theorem oneHotTerm_apply (g : IVec S32x2048 32) (b : Fin 32) (t : Fin 2048) (s : Fin 128) :
    oneHotTerm g (ix3 b t s) = ind (g (ix2 b t)) s.val := by
  unfold oneHotTerm
  show (((IntOp.cmpi .eq
      (broadcastInDim S32x2048x128 ![0, 1, 2] bcast_S32x2048x1_S32x2048x128_0_1_2
        (broadcastInDim S32x2048x1 ![0, 1] bcast_S32x2048_S32x2048x1_0_1 g) (ix3 b t s))
      (broadcastInDim S32x2048x128 ![0, 1, 2] bcast_S1x1x128_S32x2048x128_0_1_2 (iotaInDim S1x1x128 32 2) (ix3 b t s))).toNat : ℝ) : EReal) = _
  rw [broadcastInDim_apply _ bcast_S32x2048x1_S32x2048x128_0_1_2 _ (ix3 b t s) (ix3 b t (0 : Fin 1)) (by
        intro a
        match a with
        | ⟨0, _⟩ => rfl
        | ⟨1, _⟩ => rfl
        | ⟨2, _⟩ => rfl),
    broadcastInDim_apply _ bcast_S32x2048_S32x2048x1_0_1 _ (ix3 b t (0 : Fin 1)) (ix2 b t) (by
        intro a
        match a with
        | ⟨0, _⟩ => rfl
        | ⟨1, _⟩ => rfl),
    broadcastInDim_apply _ bcast_S1x1x128_S32x2048x128_0_1_2 _ (ix3 b t s) (ix3 (0 : Fin 1) (0 : Fin 1) s) (by
        intro a
        match a with
        | ⟨0, _⟩ => rfl
        | ⟨1, _⟩ => rfl
        | ⟨2, _⟩ => rfl),
    iotaInDim_apply]
  exact Cert.ReferenceIdeal.RefWords.ind_word _ _

theorem reduces_d1 : S32x2048x128.Reduces [1] S32x128 := by decide
theorem reduces_d2 : S32x128x2048.Reduces [2] S32x128 := by decide

/-- The count array at (b, s): zero plus the sum over the frames of the indicators. -/
theorem countTerm_apply (g : IVec S32x2048 32) (b : Fin 32) (s : Fin 128) :
    countTerm g (ix2 b s) = count g b s := by
  unfold countTerm
  rw [hostReduceAdd_apply, Ideal.hostReduceAdd_single reducesTo_S32x2048x128_S32x128_d1 reduces_d1]
  show Ideal.ofBits .f32 0x00000000#32 + ∑ t : Fin 2048, oneHotTerm g (reduces_d1.lift (ix2 b s) t) = _
  rw [Ideal.ofBits_zero_f32, zero_add]
  unfold Cert.SegPool.count
  refine Finset.sum_congr rfl fun t _ => ?_
  have e : reduces_d1.lift (ix2 b s) t = ix3 b t s := by
    funext a; apply Fin.ext
    match a with
    | ⟨0, _⟩ => rfl
    | ⟨1, _⟩ => rfl
    | ⟨2, _⟩ => rfl
  rw [e, oneHotTerm_apply]

/-- The weight array at (b, s): the select on "count > 0" between 1 / max(count, 1) and 0. -/
theorem weightTerm_apply (g : IVec S32x2048 32) (b : Fin 32) (s : Fin 128) :
    weightTerm g (ix2 b s) = weight (count g b s) := by
  unfold weightTerm
  show Scalar.select (Ideal.cmp .ogt (countTerm g (ix2 b s)) (Ideal.ofBits .f32 0x00000000#32))
      (Ideal.div (Ideal.ofBits .f32 0x3F800000#32) (max (countTerm g (ix2 b s)) (Ideal.ofBits .f32 0x3F800000#32)))
      (Ideal.ofBits .f32 0x00000000#32) = _
  rw [countTerm_apply, Ideal.ofBits_zero_f32, Ideal.ofBits_one_f32]
  exact Cert.ReferenceIdeal.RefWords.weight_word _

/-- The weighted one-hot array at (b, s, t): the indicator of frame t for segment s times the segment's weight. -/
theorem scaledTerm_apply (g : IVec S32x2048 32) (b : Fin 32) (s : Fin 128) (t : Fin 2048) :
    scaledTerm g (ix3 b s t) = ind (g (ix2 b t)) s.val * weight (count g b s) := by
  unfold scaledTerm
  rw [mulf_apply,
    transpose_apply _ _ transposes_S32x2048x128_S32x128x2048_0_2_1 (ix3 b s t) (ix3 b t s) (by
        intro a
        match a with
        | ⟨0, _⟩ => rfl
        | ⟨1, _⟩ => rfl
        | ⟨2, _⟩ => rfl),
    broadcastInDim_apply _ bcast_S32x128x1_S32x128x2048_0_1_2 _ (ix3 b s t) (ix3 b s (0 : Fin 1)) (by
        intro a
        match a with
        | ⟨0, _⟩ => rfl
        | ⟨1, _⟩ => rfl
        | ⟨2, _⟩ => rfl),
    broadcastInDim_apply _ bcast_S32x128_S32x128x1_0_1 _ (ix3 b s (0 : Fin 1)) (ix2 b s) (by
        intro a
        match a with
        | ⟨0, _⟩ => rfl
        | ⟨1, _⟩ => rfl),
    oneHotTerm_apply, weightTerm_apply]

/-! ## The two results -/

/-- The first composed term is the weight-first pooled array. -/
theorem pooledTerm_eq (x : FVec Ideal S32x2048x1024 .f32) (a : IVec S32x2049 32) :
    pooledTerm x a = pooledWeighted x (segOf a) := by
  funext i
  obtain ⟨b, s, d, rfl⟩ : ∃ (b : Fin 32) (s : Fin 128) (d : Fin 1024), i = ix3 b s d := ⟨i 0, i 1, i 2, eq_ix3 i⟩
  unfold pooledTerm
  generalize segOf a = g
  show Host.dotGeneral (F := Ideal) (⟨[2], [1], [1], [2], [0], [0], dot_S32x128x2048_S32x2048x1024_S32x128x1024_2_1_1_2_0_0_wf⟩ : DotDims _ _ _) none
      (scaledTerm g) x (ix3 b s d) = pooledWeightedAt x g b s d
  rw [Idealize.ShloMosaic.StackMember.dotGeneral_stack_apply]
  unfold pooledWeightedAt
  refine Finset.sum_congr rfl fun t _ => ?_
  rw [scaledTerm_apply]

/-- The second composed term is the weight-first weight sum. -/
theorem weightSumTerm_eq (a : IVec S32x2049 32) : weightSumTerm a = weightSum (segOf a) := by
  funext i
  obtain ⟨b, s, rfl⟩ : ∃ (b : Fin 32) (s : Fin 128), i = ix2 b s := ⟨i 0, i 1, eq_ix2 i⟩
  unfold weightSumTerm
  generalize segOf a = g
  rw [hostReduceAdd_apply, Ideal.hostReduceAdd_single reducesTo_S32x128x2048_S32x128_d2 reduces_d2]
  show Ideal.ofBits .f32 0x00000000#32 + ∑ t : Fin 2048, scaledTerm g (reduces_d2.lift (ix2 b s) t) = weightSumAt g b s
  rw [Ideal.ofBits_zero_f32, zero_add]
  unfold weightSumAt
  refine Finset.sum_congr rfl fun t _ => ?_
  have e : reduces_d2.lift (ix2 b s) t = ix3 b s t := by
    funext a; apply Fin.ext
    match a with
    | ⟨0, _⟩ => rfl
    | ⟨1, _⟩ => rfl
    | ⟨2, _⟩ => rfl
  rw [e, scaledTerm_apply]

/-! ## The run, read back as the specification -/

/-- On every device, from any memory with zero counters: every weakly fair execution of @main terminates with the first
    result the weight-first pooled array of the frames and the segment ids of the flags, the second the weight-first
    weight sum, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread nD τ).loc main_v20) = Cert.SegPool.pooledWeighted (m ((c.tc : Thread nD τ).loc main_arg0)) (Cert.SegPool.segOf (m ((c.tc : Thread nD τ).loc main_arg1)))
      ∧ r.2.mem ((c.tc : Thread nD τ).loc main_v21) = Cert.SegPool.weightSum (Cert.SegPool.segOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (pooledTerm_eq _ _), (h c).2.1.trans (weightSumTerm_eq _), (h c).2.2.1, (h c).2.2.2⟩)
    (run_terms m ρ)

end Cert.ReferenceIdeal.RefValue

end
-- ==== Proof.lean ====
/-
  Segment mean-pooling: a kernel against its plain reference, equal over the extended reals.

  Inputs: frames x [32, 2048, 1024] and boundary flags [32, 2049]. Every frame t of row b gets a segment id (the
  first 2048 flags of the row, a boundary forced at frame 0, running sum, minus one: `segOf`, the same chain in both
  programs, never opened). Segment s of row b owns the frames whose id is s; there are 128 segments.

  The kernel, one grid step per row, builds the 0/1 mask "frame t is in segment s", multiplies it into the row's
  frames and sums it along t, so that after the region the pooled sums and the counts are in place; the host then
  DIVIDES LAST: pooled / max(count, 1), and the flag count > 0 as 1 or 0 (`pooledDiv`, `nonempty`).
  The reference builds the same 0/1 array, scales each entry by the segment's weight FIRST (1 / max(count, 1) on a
  segment that owns a frame, 0 on one that owns none), contracts the scaled array against x, and sums the scaled
  array along t (`pooledWeighted`, `weightSum`).
  On finite frames the two arrangements agree: a count is a whole number, so it is 0 — and then every indicator of
  the segment is 0 and both sides are 0 — or at least 1 — and then dividing by it is multiplying by its reciprocal,
  which moves through the finite sum, and the weights of the segment's frames sum to count · (1 / count) = 1. The
  precondition (every frame finite) is what lets the reciprocal move through the sum. The third result is the boundary
  flags themselves, untouched by either program.

  The kernel's narrowing of the mask to bf16 and back is the identity at the ideal values; the one place the idealized
  kernel drops such a round trip is the rule instance `preserves` states.
-/
import proofs.«161840_j21569325761126_1_alg».proof.Defs
import proofs.«161840_j21569325761126_1_alg».proof.Proof.Gen.Kernel
import proofs.«161840_j21569325761126_1_alg».proof.Proof.Gen.Kernel.Skeleton
import proofs.«161840_j21569325761126_1_alg».proof.Proof.Gen.Kernel.Launch
import proofs.«161840_j21569325761126_1_alg».proof.Proof.Gen.Kernel.Points
import proofs.«161840_j21569325761126_1_alg».proof.Proof.Gen.Kernel.Frame
import proofs.«161840_j21569325761126_1_alg».proof.Proof.Gen.KernelIdeal
import proofs.«161840_j21569325761126_1_alg».proof.Proof.Gen.KernelIdeal.Skeleton
import proofs.«161840_j21569325761126_1_alg».proof.Proof.Gen.KernelIdeal.Launch
import proofs.«161840_j21569325761126_1_alg».proof.Proof.Gen.KernelIdeal.Points
import proofs.«161840_j21569325761126_1_alg».proof.Proof.Gen.KernelIdeal.Frame
import proofs.«161840_j21569325761126_1_alg».proof.Proof.Gen.ReferenceIdeal
import proofs.«161840_j21569325761126_1_alg».proof.Proof.Gen.Pre_finite_inputs
import proofs.«161840_j21569325761126_1_alg».proof.Proof.Spec
import proofs.«161840_j21569325761126_1_alg».proof.Proof.Law
import proofs.«161840_j21569325761126_1_alg».proof.Proof.Finite
import proofs.«161840_j21569325761126_1_alg».proof.Proof.KRun
import proofs.«161840_j21569325761126_1_alg».proof.Proof.RefRead
import Idealize.ShloMosaic.Adequacy
import Idealize.ShloMosaic.Init

noncomputable section

open Idealize.ShloMosaic Idealize.ShloMosaic.TcCoe Idealize.SL.Sem Cert.SegPool

namespace Cert.Proof.PoolClaims

/-- The kernel as printed runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => ⟨(h c).2.2.1, (h c).2.2.2⟩) (Cert.ReferenceIdeal.RefValue.run m ρ)

/-- Narrowing the 128×2048 mask to bf16 and widening it back is the identity at the ideal values, and the rounding
    through bf16 at the word level. -/
theorem preserves : Cert.preserves_Kernel_KernelIdeal := IdealRules.truncf_extf.statement _ .f32 .bf16

/-- From memories that agree on the frames and the flags, the kernel ends at the divide-last arrangement and the
    reference at the weight-first one, of the same frames and the same segment ids; the frames are finite, so the two
    arrangements are one function, and the weights' sums are the non-emptiness flags. -/
theorem algebraic : Cert.algebraic_KernelIdeal_ReferenceIdeal := by
  intro m ρ m' ρ' hpre hagree
  refine ⟨_, _, _, Cert.KernelIdeal.PoolValue.run m ρ, ?_⟩
  refine (θ_run Cert.ReferenceIdeal.defs _ _).mono (fun r h c => ?_) (Cert.ReferenceIdeal.RefValue.run m' ρ')
  obtain ⟨h20, h21, ha0, ha1⟩ := h c
  have hfin := Cert.SegPool.finite_of_pre _ _ (hpre c)
  refine ⟨?_, ?_, ?_, ha0, ha1⟩
  · rw [h20, (hagree c).1, (hagree c).2]
    exact Cert.SegPool.pooledWeighted_eq_pooledDiv _ _ hfin
  · rw [h21, (hagree c).2]
    exact Cert.SegPool.weightSum_eq_nonempty _
  · rw [ha1, (hagree c).2]

end Cert.Proof.PoolClaims

namespace Cert.Proof

theorem claim : Cert.Claim := ⟨Cert.Kernel.Gen.facts, Cert.KernelIdeal.Gen.facts, Cert.ReferenceIdeal.Gen.facts, Cert.Pre_finite_inputs.Gen.facts,
  PoolClaims.frame_k, PoolClaims.frame_ki, PoolClaims.frame_ri, PoolClaims.preserves, PoolClaims.algebraic⟩

end Cert.Proof

end
